-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  main_v53

def fn_part2 {F : FTy → Type} [FloatOps F] (main_arg8 : FVec F S128 .f32) (main_arg9 : FVec F S64x128 .f32) (main_arg10 : FVec F S64 .f32) (main_arg11 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 67
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S128x64, .f32⟩
  | .hbm, ⟨64, _⟩ => ⟨S128x64, .f32⟩
  | .hbm, ⟨65, _⟩ => ⟨S1x64, .f32⟩
  | .hbm, ⟨66, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x64, .f32⟩
  | .local _ .vmem, ⟨22, _⟩ => ⟨S1x64, .f32⟩
  | .local _ .vmem, ⟨23, _⟩ => ⟨S128x64, .f32⟩
  | .local _ .vmem, ⟨24, _⟩ => ⟨S5000x64, .f32⟩
  | .local _ .vmem, ⟨25, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S128x128, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S128x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S128x64, .f32⟩
  | .hbm, ⟨99, _⟩ => ⟨S100000x64, .f32⟩
  | .hbm, ⟨100, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_c_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunK.lean ====
/-
  The idealized kernel program's run with its result NAMED. The program is four stretches: host operations, the first
  layer's grid, host operations, the second layer's grid. Every weakly fair execution runs through them in order; at
  the end every buffer the thread holds outside a grid's scope has the contents the last boundary names, so in
  particular the result buffer holds what the second grid's write-backs leave (the fold `W4` at that buffer), and the
  argument buffers hold what they were launched with.
-/
import proofs.«142155_j30889404793605_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the twelve argument buffers as launched. -/
theorem run_named : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.Sage.KRun

end
-- ==== Proof.Spec.lean ====
/-
  The mathematics both programs compute: two mean-aggregating graph-convolution layers over 100000 nodes, a batch
  normalisation with fixed statistics and a rectifier between them. Written once, over the extended reals, as functions of
  the arrays a layer reads:

    hidden (r, j) = max (((Σₖ (agg (r,k) · inv r) · wl (k,j) + Σₖ x (r,k) · wr (k,j)) + b j − μ j) · rsqrt (σ² j + ε) · γ j + β j) 0
    out    (r, j) =      (Σₖ (agg (r,k) · inv r) · wl (k,j) + Σₖ h (r,k) · wr (k,j)) + b j

  where `agg` is the neighbour sum of a node's in-edges and `inv r` the reciprocal of its in-degree (at least one).
  One program multiplies the neighbour sum by that reciprocal, the other divides the sum by the degree; on the extended
  reals a quotient by a nonzero `d` IS the product with `1 / d` (`div_eq_mul_one_div`), infinite `d` included, and the
  degree is at least one by construction, so no finiteness is needed. The two programs also add the bias on different
  sides of the second product: commutativity and associativity of the extended reals' sum (`add_right_comm`).
-/
import Idealize.ShloMosaic.PureOps.Ideal
import Idealize.ShloMosaic.Lib.ValueIdx

noncomputable section

namespace Cert.Sage

open Idealize.ShloMosaic Idealize.ShloMosaic.ValueIdx

/-- A two-axis array of extended reals. -/
abbrev Arr (a b : Nat) : Type := (⟨2, ![a, b]⟩ : Shape).Idx → EReal

/-- The variance guard of the normalisation, the same binary word in both programs. -/
abbrev eps : EReal := Ideal.ofBits .f32 0x3727C5AC#32

/-- The rectifier's floor, the zero word. -/
abbrev floor0 : EReal := Ideal.ofBits .f32 0x00000000#32

/-- The first layer at node `r`, feature `j`: the mean of the neighbours' features through `wl`, the node's own through
    `wr`, the bias, then normalised, scaled, shifted and rectified. -/
def hiddenAt (x agg : Arr 100000 128) (inv : Arr 100000 1) (wl : Arr 128 128) (b : Arr 1 128) (wr : Arr 128 128)
    (g be mu va : Arr 1 128) (r : Fin 100000) (j : Fin 128) : EReal :=
  max ((((((∑ k : Fin 128, (agg (ix2 r k) * inv (ix2 r (0 : Fin 1))) * wl (ix2 k j))
        + ∑ k : Fin 128, x (ix2 r k) * wr (ix2 k j)) + b (ix2 (0 : Fin 1) j)) - mu (ix2 (0 : Fin 1) j))
      * Ideal.rsqrt (va (ix2 (0 : Fin 1) j) + eps)) * g (ix2 (0 : Fin 1) j) + be (ix2 (0 : Fin 1) j)) floor0

/-- The first layer as an array. -/
def hidden (x agg : Arr 100000 128) (inv : Arr 100000 1) (wl : Arr 128 128) (b : Arr 1 128) (wr : Arr 128 128)
    (g be mu va : Arr 1 128) : Arr 100000 128 :=
  fun i => hiddenAt x agg inv wl b wr g be mu va (i 0) (i 1)

/-- The second layer at node `r`, output feature `j`. -/
def outAt (h agg : Arr 100000 128) (inv : Arr 100000 1) (wl : Arr 128 64) (b : Arr 1 64) (wr : Arr 128 64)
    (r : Fin 100000) (j : Fin 64) : EReal :=
  ((∑ k : Fin 128, (agg (ix2 r k) * inv (ix2 r (0 : Fin 1))) * wl (ix2 k j))
    + ∑ k : Fin 128, h (ix2 r k) * wr (ix2 k j)) + b (ix2 (0 : Fin 1) j)

/-- The second layer as an array. -/
def out (h agg : Arr 100000 128) (inv : Arr 100000 1) (wl : Arr 128 64) (b : Arr 1 64) (wr : Arr 128 64) : Arr 100000 64 :=
  fun i => outAt h agg inv wl b wr (i 0) (i 1)

theorem hidden_ix2 (x agg : Arr 100000 128) (inv : Arr 100000 1) (wl : Arr 128 128) (b : Arr 1 128) (wr : Arr 128 128)
    (g be mu va : Arr 1 128) (r : Fin 100000) (j : Fin 128) :
    hidden x agg inv wl b wr g be mu va (ix2 r j) = hiddenAt x agg inv wl b wr g be mu va r j := rfl

theorem out_ix2 (h agg : Arr 100000 128) (inv : Arr 100000 1) (wl : Arr 128 64) (b : Arr 1 64) (wr : Arr 128 64)
    (r : Fin 100000) (j : Fin 64) :
    out h agg inv wl b wr (ix2 r j) = outAt h agg inv wl b wr r j := rfl

/-- A quotient by a nonzero extended real is the product with its reciprocal: both are `a · d⁻¹`
    (an infinite `d` has reciprocal zero on both sides). -/
theorem div_eq_mul_one_div (a d : EReal) (hd : d ≠ 0) : Ideal.div a d = a * Ideal.div 1 d := by
  unfold Ideal.div
  rw [if_neg hd, if_neg hd, one_mul]

/-- The larger of anything and one is not zero. -/
theorem max_one_ne_zero (c : EReal) : max c 1 ≠ 0 := by
  have h : (0 : EReal) < max c 1 := lt_of_lt_of_le zero_lt_one (le_max_right c 1)
  exact ne_of_gt h

end Cert.Sage

end
-- ==== Proof.HostTerms.lean ====
/-
  The host-side arrays both programs build before a layer runs, as functions of the edge list `e` (row 0 the sources,
  row 1 the destinations of 1600000 edges) and of the parameters:

    agg e x   row r is the sum of x's rows at the sources of the edges whose destination is r
              (a row gather by source, then an accumulating scatter by destination, into zeros);
    deg e     entry r counts the edges whose destination is r (ones scattered by destination);
    invDeg e  the column 1 / max (deg e) 1;
  the parameter matrices transposed, and the parameter vectors as single rows.
  The gather and the two scatters are never opened: both programs apply them to equal operands, so they are carried
  as they stand. `program` is the whole network in these terms.
-/
import proofs.«142155_j30889404793605_2_alg».proof.Proof.Gen.KernelIdeal
import proofs.«142155_j30889404793605_2_alg».proof.Proof.Spec

noncomputable section

namespace Cert.Sage.Host

open Cert.KernelIdeal Cert.KernelIdeal.Facts₀ Cert.Sage Idealize.ShloMosaic

/-- The destinations, one per edge, as the scatters' index column. -/
def dstIdx (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The sources, one per edge. -/
def srcRow (e : IVec S2x1600000 32) : IVec S1600000 32 :=
  shapeCast _ (extractStridedSlice S1x1600000 ![0, 0] e slices_S2x1600000_S1x1600000_0_0) shapeCasts_S1x1600000_S1600000

/-- The sources as the gather's index column, a negative index counted from the end. -/
def srcIdx (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- Neighbour sums: the rows of `x` gathered at the sources and accumulated at the destinations. -/
def agg (e : IVec S2x1600000 32) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstIdx e)
    (Host.gather gather_S100000x128_S1600000x1_S1600000x128_1_0_n_n_0_1_1128 x (srcIdx e))

/-- In-degrees: a one per edge accumulated at its destination. -/
def deg (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstIdx e)
    (broadcastInDim S1600000 ![] bcast_S_S1600000 (constant (F := Ideal) S_ .f32 0x3F800000#32))

/-- The reciprocal of the in-degree, at least one, as a column. -/
def invDeg (e : IVec S2x1600000 32) : FVec Ideal S100000x1 .f32 :=
  Host.divf (F := Ideal) (broadcastInDim S100000x1 ![] bcast_S_S100000x1 (constant (F := Ideal) S_ .f32 0x3F800000#32))
    (maximumf (shapeCast _ (deg e) shapeCasts_S100000_S100000x1)
      (broadcastInDim S100000x1 ![] bcast_S_S100000x1 (constant (F := Ideal) S_ .f32 0x3F800000#32)))

/-- A 128 × 128 parameter matrix transposed. -/
def tr128 (w : FVec Ideal S128x128 .f32) : FVec Ideal S128x128 .f32 :=
  transpose S128x128 [1, 0] w transposes_S128x128_S128x128_1_0

/-- A 64 × 128 parameter matrix transposed. -/
def tr64 (w : FVec Ideal S64x128 .f32) : FVec Ideal S128x64 .f32 :=
  transpose S128x64 [1, 0] w transposes_S64x128_S128x64_1_0

/-- A 128-vector as one row. -/
def row128 (v : FVec Ideal S128 .f32) : FVec Ideal S1x128 .f32 := shapeCast _ v shapeCasts_S128_S1x128

/-- A 64-vector as one row. -/
def row64 (v : FVec Ideal S64 .f32) : FVec Ideal S1x64 .f32 := shapeCast _ v shapeCasts_S64_S1x64

/-- The first layer's output over the whole graph. -/
def layer1 (x : FVec Ideal S100000x128 .f32) (e : IVec S2x1600000 32) (w1l : FVec Ideal S128x128 .f32) (b1l : FVec Ideal S128 .f32)
    (w1r : FVec Ideal S128x128 .f32) (g be mu va : FVec Ideal S128 .f32) : FVec Ideal S100000x128 .f32 :=
  hidden x (agg e x) (invDeg e) (tr128 w1l) (row128 b1l) (tr128 w1r) (row128 g) (row128 be) (row128 mu) (row128 va)

/-- The network: the second layer applied to the first layer's output and its neighbour sums. -/
def program (x : FVec Ideal S100000x128 .f32) (e : IVec S2x1600000 32) (w1l : FVec Ideal S128x128 .f32) (b1l : FVec Ideal S128 .f32)
    (w1r : FVec Ideal S128x128 .f32) (g be mu va : FVec Ideal S128 .f32) (w2l : FVec Ideal S64x128 .f32) (b2l : FVec Ideal S64 .f32)
    (w2r : FVec Ideal S64x128 .f32) : FVec Ideal S100000x64 .f32 :=
  out (layer1 x e w1l b1l w1r g be mu va) (agg e (layer1 x e w1l b1l w1r g be mu va)) (invDeg e) (tr64 w2l) (row64 b2l) (tr64 w2r)

end Cert.Sage.Host

end
-- ==== Proof.HostK.lean ====
/-
  What each layer is entered with, as functions of the launch memory. Before the first layer the host builds, from the
  edge list and the parameters, the neighbour sums of the features, the inverse-degree column, the transposed weight
  matrices and the parameter vectors as rows; between the layers it builds the neighbour sums of the first layer's
  output and the second layer's transposed weights and bias row. The first layer's output and the inverse-degree column
  reach the second layer as the first grid leaves them: no host operation writes either, and the grid only reads the column.
-/
import proofs.«142155_j30889404793605_2_alg».proof.Proof.Gen.KernelIdeal.Frame
import proofs.«142155_j30889404793605_2_alg».proof.Proof.HostTerms
import Idealize.ShloMosaic.Lib.StableHlo.Run
import Idealize.ShloMosaic.Lib.Pipeline.Value

noncomputable section

namespace Cert.Sage.KHost

open Cert.KernelIdeal Cert.KernelIdeal.Gen Cert.Sage Cert.Sage.Host
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Entering the first layer: every operand as the host built it from the launch memory -/

theorem V1_arg0 (c : Dev nD) : V1 m ρ c main_arg0 = (m ((c : Thread nD τ).loc main_arg0)) := by
  show StableHlo.after hostOps0 (W0 m ρ c) (Proc.devRef .tc main_arg0) = _
  after_results_simp <;> rfl

theorem V1_v22 (c : Dev nD) : V1 m ρ c main_v22 = agg (m ((c : Thread nD τ).loc main_arg1)) (m ((c : Thread nD τ).loc main_arg0)) := by
  show StableHlo.after hostOps0 (W0 m ρ c) (Proc.devRef .tc main_v22) = _
  after_results_simp
  unfold agg dstIdx srcIdx srcRow
  rfl

theorem V1_v12 (c : Dev nD) : V1 m ρ c main_v12 = invDeg (m ((c : Thread nD τ).loc main_arg1)) := by
  show StableHlo.after hostOps0 (W0 m ρ c) (Proc.devRef .tc main_v12) = _
  after_results_simp
  unfold invDeg deg dstIdx
  rfl

theorem V1_v23 (c : Dev nD) : V1 m ρ c main_v23 = tr128 (m ((c : Thread nD τ).loc main_arg2)) := by
  show StableHlo.after hostOps0 (W0 m ρ c) (Proc.devRef .tc main_v23) = _
  after_results_simp
  unfold tr128
  rfl

theorem V1_v24 (c : Dev nD) : V1 m ρ c main_v24 = tr128 (m ((c : Thread nD τ).loc main_arg4)) := by
  show StableHlo.after hostOps0 (W0 m ρ c) (Proc.devRef .tc main_v24) = _
  after_results_simp
  unfold tr128
  rfl

theorem V1_v25 (c : Dev nD) : V1 m ρ c main_v25 = row128 (m ((c : Thread nD τ).loc main_arg3)) := by
  show StableHlo.after hostOps0 (W0 m ρ c) (Proc.devRef .tc main_v25) = _
  after_results_simp
  unfold row128
  rfl

theorem V1_v26 (c : Dev nD) : V1 m ρ c main_v26 = row128 (m ((c : Thread nD τ).loc main_arg5)) := by
  show StableHlo.after hostOps0 (W0 m ρ c) (Proc.devRef .tc main_v26) = _
  after_results_simp
  unfold row128
  rfl

theorem V1_v27 (c : Dev nD) : V1 m ρ c main_v27 = row128 (m ((c : Thread nD τ).loc main_arg6)) := by
  show StableHlo.after hostOps0 (W0 m ρ c) (Proc.devRef .tc main_v27) = _
  after_results_simp
  unfold row128
  rfl

theorem V1_v28 (c : Dev nD) : V1 m ρ c main_v28 = row128 (m ((c : Thread nD τ).loc main_arg7)) := by
  show StableHlo.after hostOps0 (W0 m ρ c) (Proc.devRef .tc main_v28) = _
  after_results_simp
  unfold row128
  rfl

theorem V1_v29 (c : Dev nD) : V1 m ρ c main_v29 = row128 (m ((c : Thread nD τ).loc main_arg8)) := by
  show StableHlo.after hostOps0 (W0 m ρ c) (Proc.devRef .tc main_v29) = _
  after_results_simp
  unfold row128
  rfl

/-! ## Leaving the first layer: what the second stretch of host operations reads -/

/-- The source row of the edge list is still what the first stretch made it: the first grid does not stage it. -/
theorem W2_v1 (c : Dev nD) : W2 m ρ c (Proc.devRef .tc main_v1) = srcRow (m ((c : Thread nD τ).loc main_arg1)) :=
  (W2_of_ne m ρ c main_v1 (by decide)).trans (by
    show StableHlo.after hostOps0 (W0 m ρ c) (Proc.devRef .tc main_v1) = _
    after_results_simp
    unfold srcRow
    rfl)

/-- So is the destination row. -/
theorem W2_v3 (c : Dev nD) : W2 m ρ c (Proc.devRef .tc main_v3)
    = shapeCast _ (extractStridedSlice S1x1600000 ![1, 0] (m ((c : Thread nD τ).loc main_arg1)) Facts₀.slices_S2x1600000_S1x1600000_1_0) Facts₀.shapeCasts_S1x1600000_S1600000 :=
  (W2_of_ne m ρ c main_v3 (by decide)).trans (by
    show StableHlo.after hostOps0 (W0 m ρ c) (Proc.devRef .tc main_v3) = _
    after_results_simp
    rfl)

/-- The first grid's output array is what its write-backs leave. -/
theorem W2_v30 (c : Dev nD) : W2 m ρ c (Proc.devRef .tc main_v30) = (dat0 (V1 m ρ) c).arrAt 10 cfg0.N :=
  W2_arr m ρ c 10

/-- The inverse-degree column is only read by the first grid. -/
theorem W2_v12 (c : Dev nD) : W2 m ρ c (Proc.devRef .tc main_v12) = invDeg (m ((c : Thread nD τ).loc main_arg1)) :=
  ((W2_arr m ρ c 2).trans (((dat0 (V1 m ρ) c).arrAt_in 2 rfl _).trans (A_eq0 (V1 m ρ) c 2))).trans (V1_v12 m ρ c)

theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)

theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp <;> rfl)

/-! ## Entering the second layer -/

theorem V3_v30 (c : Dev nD) : V3 m ρ c main_v30 = (dat0 (V1 m ρ) c).arrAt 10 cfg0.N := by
  show StableHlo.after hostOps1 (W2 m ρ c) (Proc.devRef .tc main_v30) = _
  after_results_simp
  exact W2_v30 m ρ c

theorem V3_v12 (c : Dev nD) : V3 m ρ c main_v12 = invDeg (m ((c : Thread nD τ).loc main_arg1)) := by
  show StableHlo.after hostOps1 (W2 m ρ c) (Proc.devRef .tc main_v12) = _
  after_results_simp
  exact W2_v12 m ρ c

theorem V3_v40 (c : Dev nD) : V3 m ρ c main_v40 = agg (m ((c : Thread nD τ).loc main_arg1)) ((dat0 (V1 m ρ) c).arrAt 10 cfg0.N) := by
  show StableHlo.after hostOps1 (W2 m ρ c) (Proc.devRef .tc main_v40) = _
  after_results_simp
  rw [W2_v1, W2_v3, W2_v30]
  unfold agg dstIdx srcIdx
  rfl

theorem V3_v41 (c : Dev nD) : V3 m ρ c main_v41 = tr64 (m ((c : Thread nD τ).loc main_arg9)) := by
  show StableHlo.after hostOps1 (W2 m ρ c) (Proc.devRef .tc main_v41) = _
  after_results_simp
  rw [W2_arg9]
  unfold tr64
  rfl

theorem V3_v42 (c : Dev nD) : V3 m ρ c main_v42 = tr64 (m ((c : Thread nD τ).loc main_arg11)) := by
  show StableHlo.after hostOps1 (W2 m ρ c) (Proc.devRef .tc main_v42) = _
  after_results_simp
  rw [W2_arg11]
  unfold tr64
  rfl

theorem V3_v43 (c : Dev nD) : V3 m ρ c main_v43 = row64 (m ((c : Thread nD τ).loc main_arg10)) := by
  show StableHlo.after hostOps1 (W2 m ρ c) (Proc.devRef .tc main_v43) = _
  after_results_simp
  rw [W2_arg10]
  unfold row64
  rfl

end Cert.Sage.KHost

end
-- ==== Proof.LibBroadcastColumn.lean ====
/-
  A column broadcast along its rows, read at an index: an `[a, 1]` array broadcast to `[a, b]` holds, at `(p, c)`, the
  column's entry of row `p` — the companion of the row form `[1, b] → [a, b]`, which holds the row's entry of column `c`.
  This is how a per-row quantity kept with a trailing unit axis (a row sum, a row norm, a row maximum) meets a matrix.
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's one column at row `p`. On axis 0 the
    operand's coordinate is the result's (or `0` when `a = 1`, where `p` is `0` anyway); on axis 1 it is `0`, the axis
    having extent one. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Body0.lean ====
/-
  The first layer's arithmetic on one block of 5000 nodes, read at one element: row `p` of the block, feature `q`.
  The block's two matrix products are sums over the 128 input features (a change of float format is the identity on
  the extended reals, and a product accumulated into zero is the plain sum); everything else is elementwise, with the
  per-feature rows broadcast down the block and the per-node column broadcast across it.
-/
import proofs.«142155_j30889404793605_2_alg».proof.Proof.Gen.KernelIdeal.Skeleton
import proofs.«142155_j30889404793605_2_alg».proof.Proof.Spec
import proofs.«142155_j30889404793605_2_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Cert.KernelIdeal Cert.KernelIdeal.Gen Cert.Sage Idealize.ShloMosaic Idealize.ShloMosaic.ValueIdx

/-- A `[5000, 128] × [128, 128]` product accumulated into zero, read at `(p, q)`: the sum over the 128 contracted
    features of row `p` of the left factor against column `q` of the right one. The contraction shape has one axis of
    extent 128, so its index is one coordinate `k`; the left operand is read at `(p, k)` (axis 0 kept from the output,
    axis 1 contracted) and the right at `(k, q)` (axis 0 contracted, axis 1 kept). -/
theorem matmul_5000x128_128x128_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q)
      ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
  rw [el, er]

/-- What the first layer's body stores at `(p, q)` of its output block, from the ten blocks it loads
    (in window order: features, neighbour sums, inverse degrees, the two weight matrices around the bias, then scale,
    shift, running mean and running variance). -/
theorem layer1_payload (x0 x1 : FVec Ideal S5000x128 .f32) (x2 : FVec Ideal S5000x1 .f32) (x3 : FVec Ideal S128x128 .f32)
    (x4 : FVec Ideal S1x128 .f32) (x5 : FVec Ideal S128x128 .f32) (x6 x7 x8 x9 : FVec Ideal S1x128 .f32)
    (p : Fin 5000) (q : Fin 128) :
    k0_pay1 (F := Ideal) (k0_pay2 (F := Ideal) x0 x1 x2 x3 x5 x4 x9 x8 x6) x7 (ix2 p q)
      = max ((((((∑ k : Fin 128, (x1 (ix2 p k) * x2 (ix2 p (0 : Fin 1))) * x3 (ix2 k q))
            + ∑ k : Fin 128, x0 (ix2 p k) * x5 (ix2 k q)) + x4 (ix2 (0 : Fin 1) q)) - x8 (ix2 (0 : Fin 1) q))
          * Ideal.rsqrt (x9 (ix2 (0 : Fin 1) q) + eps)) * x6 (ix2 (0 : Fin 1) q) + x7 (ix2 (0 : Fin 1) q)) floor0 := by
  -- the neighbour term: the change of float format is the identity on the extended reals, the elementwise product
  -- reads both factors at `(p, k)`, and the inverse-degree column broadcast across the block reads row `p` of it
  have hA : matmul dot_S5000x128_S128x128_S5000x128_1_0_0_1_n_n none
        (truncf .bf16 (mulf x1 (broadcastTo S5000x128 x2 broadcasts_S5000x1_S5000x128)) bitsLt_bf16_f32)
        (truncf .bf16 x3 bitsLt_bf16_f32) (constant (F := Ideal) S5000x128 .f32 0x00000000#32) (ix2 p q)
      = ∑ k : Fin 128, (x1 (ix2 p k) * x2 (ix2 p (0 : Fin 1))) * x3 (ix2 k q) := by
    refine (matmul_5000x128_128x128_apply _ _ p q).trans (Finset.sum_congr rfl fun k _ => ?_)
    show (x1 (ix2 p k) * broadcastTo S5000x128 x2 broadcasts_S5000x1_S5000x128 (ix2 p k)) * x3 (ix2 k q) = _
    rw [Cert.Lib.broadcastTo_a1_ab_apply]
  -- the node's own term
  have hB : matmul dot_S5000x128_S128x128_S5000x128_1_0_0_1_n_n none
        (truncf .bf16 x0 bitsLt_bf16_f32) (truncf .bf16 x5 bitsLt_bf16_f32)
        (constant (F := Ideal) S5000x128 .f32 0x00000000#32) (ix2 p q)
      = ∑ k : Fin 128, x0 (ix2 p k) * x5 (ix2 k q) :=
    matmul_5000x128_128x128_apply _ _ p q
  -- a per-feature row broadcast down the block reads its column `q`
  have hrow : ∀ v : FVec Ideal S1x128 .f32,
      broadcastTo S5000x128 v broadcasts_S1x128_S5000x128 (ix2 p q) = v (ix2 (0 : Fin 1) q) :=
    fun v => broadcastTo_1b_ab_apply v broadcasts_S1x128_S5000x128 p q
  -- the normaliser: the reciprocal square root acts elementwise on the guarded variance row
  have hR : broadcastTo S5000x128
        (rsqrt (addf x9 (broadcast S1x128 (Scalar.ofBits (F := Ideal) .f32 0x3727C5AC#32)))) broadcasts_S1x128_S5000x128 (ix2 p q)
      = Ideal.rsqrt (x9 (ix2 (0 : Fin 1) q) + eps) :=
    hrow _
  unfold k0_pay1 k0_pay2
  -- a reshape to the same shape is the identity; what is left is the elementwise formula read at `(p, q)`
  simp only [shapeCast_self]
  exact congrArg₂ max
    (congrArg₂ (· + ·)
      (congrArg₂ (· * ·)
        (congrArg₂ (· * ·)
          (congrArg₂ (· - ·) (congrArg₂ (· + ·) (congrArg₂ (· + ·) hA hB) (hrow x4)) (hrow x8))
          hR)
        (hrow x6))
      (hrow x7))
    rfl

end Cert.Sage.Body

end
-- ==== Proof.Region0.lean ====
/-
  The first layer over the whole graph, from its blocks. The grid has 20 points; point `t` computes rows
  5000·t … 5000·t + 4999 of the output from the same rows of the features, of the neighbour sums and of the
  inverse-degree column, and from the whole of every parameter array. So what point `t` writes back is block `t` of ONE
  function of the arrays the layer reads, the blocks cover the array, and the array after the layer is that function.
-/
import proofs.«142155_j30889404793605_2_alg».proof.Proof.Gen.KernelIdeal.Frame
import proofs.«142155_j30889404793605_2_alg».proof.Proof.Spec
import proofs.«142155_j30889404793605_2_alg».proof.Proof.Body0
import Idealize.ShloMosaic.Lib.Pipeline.Value

noncomputable section

namespace Cert.Sage.Region

open Cert.KernelIdeal Cert.KernelIdeal.Gen Cert.Sage Idealize.ShloMosaic Idealize.ShloMosaic.TcCoe Idealize.ShloMosaic.ValueIdx Idealize.SL.Sem
open Idealize.ShloMosaic.Pipeline (Dat)

/-- The zero offsets of a whole-block load or store. -/
theorem layer1_offsets : (![0, 0] : Fin 2 → Nat) = fun _ => 0 := funext fun a => by fin_cases a <;> rfl

/-- The block index of every window at point `t`, decided over the 20 points: the three row-blocked inputs and the
    output sit at block `(t, 0)`, the seven parameter arrays at block `(0, 0)`. -/
theorem layer1_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

section
variable (V : (c : Dev nD) → (b : Ref sig .tc) → Buf (Elt Ideal) ((c : Thread nD τ).loc b)) (c : Dev nD)

/-- Row `p` of the features' block at point `t` is row `5000·t + p` of the array. -/
theorem layer1_block0 (t : Fin cfg0.N) (p : Fin 5000) (k : Fin 128) (r : Fin 100000) (hr : r.val = 5000 * t.val + p.val) :
    (iblk0 (F := Ideal) V c 0 t : Vec Ideal S5000x128 .f32) (ix2 p k) = (V c main_arg0 : Arr 100000 128) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row `p` of the neighbour sums' block at point `t` is row `5000·t + p` of the array. -/
theorem layer1_block1 (t : Fin cfg0.N) (p : Fin 5000) (k : Fin 128) (r : Fin 100000) (hr : r.val = 5000 * t.val + p.val) :
    (iblk0 (F := Ideal) V c 1 t : Vec Ideal S5000x128 .f32) (ix2 p k) = (V c main_v22 : Arr 100000 128) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v22 (((cfg0.win 1).blk t).view.emb (ix2 p k)) = V c main_v22 (ix2 r k)
  refine congrArg _ ?_
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- Row `p` of the inverse-degree column's block at point `t` is row `5000·t + p` of the column. -/
theorem layer1_block2 (t : Fin cfg0.N) (p : Fin 5000) (k : Fin 1) (r : Fin 100000) (hr : r.val = 5000 * t.val + p.val) :
    (iblk0 (F := Ideal) V c 2 t : Vec Ideal S5000x1 .f32) (ix2 p k) = (V c main_v12 : Arr 100000 1) (ix2 r k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v12 (((cfg0.win 2).blk t).view.emb (ix2 p k)) = V c main_v12 (ix2 r k)
  refine congrArg _ ?_
  funext a; apply Fin.ext
  match a with
  | ⟨0, _⟩ => show win0_2.index t (0 : Fin 2) * 5000 + 1 * p.val = r.val; omega
  | ⟨1, _⟩ => show win0_2.index t (1 : Fin 2) * 1 + 1 * k.val = k.val; omega

/-- The neighbours' weight matrix is staged whole at every point. -/
theorem layer1_block3 (t : Fin cfg0.N) (k : Fin 128) (q : Fin 128) :
    (iblk0 (F := Ideal) V c 3 t : Vec Ideal S128x128 .f32) (ix2 k q) = (V c main_v23 : Arr 128 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v23 (((cfg0.win 3).blk t).view.emb (ix2 k q)) = V c main_v23 (ix2 k q)
  refine congrArg _ ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The bias row is staged whole at every point. -/
theorem layer1_block4 (t : Fin cfg0.N) (k : Fin 1) (q : Fin 128) :
    (iblk0 (F := Ideal) V c 4 t : Vec Ideal S1x128 .f32) (ix2 k q) = (V c main_v25 : Arr 1 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v25 (((cfg0.win 4).blk t).view.emb (ix2 k q)) = V c main_v25 (ix2 k q)
  refine congrArg _ ?_
  funext a; apply Fin.ext
  match a with
  | ⟨0, _⟩ => show win0_4.index t (0 : Fin 2) * 1 + 1 * k.val = k.val; omega
  | ⟨1, _⟩ => show win0_4.index t (1 : Fin 2) * 128 + 1 * q.val = q.val; omega

/-- The node's own weight matrix is staged whole at every point. -/
theorem layer1_block5 (t : Fin cfg0.N) (k : Fin 128) (q : Fin 128) :
    (iblk0 (F := Ideal) V c 5 t : Vec Ideal S128x128 .f32) (ix2 k q) = (V c main_v24 : Arr 128 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v24 (((cfg0.win 5).blk t).view.emb (ix2 k q)) = V c main_v24 (ix2 k q)
  refine congrArg _ ?_
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- The normalisation's scale row is staged whole at every point. -/
theorem layer1_block6 (t : Fin cfg0.N) (k : Fin 1) (q : Fin 128) :
    (iblk0 (F := Ideal) V c 6 t : Vec Ideal S1x128 .f32) (ix2 k q) = (V c main_v26 : Arr 1 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v26 (((cfg0.win 6).blk t).view.emb (ix2 k q)) = V c main_v26 (ix2 k q)
  refine congrArg _ ?_
  funext a; apply Fin.ext
  match a with
  | ⟨0, _⟩ => show win0_6.index t (0 : Fin 2) * 1 + 1 * k.val = k.val; omega
  | ⟨1, _⟩ => show win0_6.index t (1 : Fin 2) * 128 + 1 * q.val = q.val; omega

/-- The normalisation's shift row is staged whole at every point. -/
theorem layer1_block7 (t : Fin cfg0.N) (k : Fin 1) (q : Fin 128) :
    (iblk0 (F := Ideal) V c 7 t : Vec Ideal S1x128 .f32) (ix2 k q) = (V c main_v27 : Arr 1 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v27 (((cfg0.win 7).blk t).view.emb (ix2 k q)) = V c main_v27 (ix2 k q)
  refine congrArg _ ?_
  funext a; apply Fin.ext
  match a with
  | ⟨0, _⟩ => show win0_7.index t (0 : Fin 2) * 1 + 1 * k.val = k.val; omega
  | ⟨1, _⟩ => show win0_7.index t (1 : Fin 2) * 128 + 1 * q.val = q.val; omega

/-- The running-mean row is staged whole at every point. -/
theorem layer1_block8 (t : Fin cfg0.N) (k : Fin 1) (q : Fin 128) :
    (iblk0 (F := Ideal) V c 8 t : Vec Ideal S1x128 .f32) (ix2 k q) = (V c main_v28 : Arr 1 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v28 (((cfg0.win 8).blk t).view.emb (ix2 k q)) = V c main_v28 (ix2 k q)
  refine congrArg _ ?_
  funext a; apply Fin.ext
  match a with
  | ⟨0, _⟩ => show win0_8.index t (0 : Fin 2) * 1 + 1 * k.val = k.val; omega
  | ⟨1, _⟩ => show win0_8.index t (1 : Fin 2) * 128 + 1 * q.val = q.val; omega

/-- The running-variance row is staged whole at every point. -/
theorem layer1_block9 (t : Fin cfg0.N) (k : Fin 1) (q : Fin 128) :
    (iblk0 (F := Ideal) V c 9 t : Vec Ideal S1x128 .f32) (ix2 k q) = (V c main_v29 : Arr 1 128) (ix2 k q) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  show V c main_v29 (((cfg0.win 9).blk t).view.emb (ix2 k q)) = V c main_v29 (ix2 k q)
  refine congrArg _ ?_
  funext a; apply Fin.ext
  match a with
  | ⟨0, _⟩ => show win0_9.index t (0 : Fin 2) * 1 + 1 * k.val = k.val; omega
  | ⟨1, _⟩ => show win0_9.index t (1 : Fin 2) * 128 + 1 * q.val = q.val; omega

/-- What the body stores at `(p, q)` of its block at point `t` is the layer at node `5000·t + p`, feature `q`. -/
theorem layer1_stored (t : Fin cfg0.N) (p : Fin 5000) (q : Fin 128) (r : Fin 100000) (hr : r.val = 5000 * t.val + p.val) :
    k0_pay1 (F := Ideal) (k0_pay2 (F := Ideal) (iblk0 V c 0 t) (iblk0 V c 1 t) (iblk0 V c 2 t) (iblk0 V c 3 t) (iblk0 V c 5 t) (iblk0 V c 4 t)
        (iblk0 V c 9 t) (iblk0 V c 8 t) (iblk0 V c 6 t)) (iblk0 V c 7 t) (ix2 p q)
      = hidden (V c main_arg0) (V c main_v22) (V c main_v12) (V c main_v23) (V c main_v25) (V c main_v24) (V c main_v26) (V c main_v27) (V c main_v28) (V c main_v29) (ix2 r q) := by
  refine (Body.layer1_payload _ _ _ _ _ _ _ _ _ _ p q).trans ?_
  rw [hidden_ix2]
  unfold hiddenAt
  simp only [layer1_block0 V c t p _ r hr, layer1_block1 V c t p _ r hr, layer1_block2 V c t p _ r hr,
    layer1_block3 V c t, layer1_block4 V c t, layer1_block5 V c t, layer1_block6 V c t, layer1_block7 V c t,
    layer1_block8 V c t, layer1_block9 V c t]

/-- What point `t` writes back is block `t` of the layer's value on the arrays the layer was entered with. -/
theorem layer1_flushed (t : Fin cfg0.N) :
    (dat0 (F := Ideal) V c).flushed 10 t
      = ((cfg0.win 10).blk t).view.read (Elt Ideal) (hidden (V c main_arg0) (V c main_v22) (V c main_v12) (V c main_v23) (V c main_v25) (V c main_v24) (V c main_v26) (V c main_v27) (V c main_v28) (V c main_v29)) := by
  show (cfg0.win 10).cut (grid0.coords t) ((dat0 V c).after 10 t) = _
  rw [after0_10]
  unfold out0_10
  rw [View.canon_unit_zero layer1_offsets]
  simp only [View.ld_unit_zero (S := S5000x128) layer1_offsets, View.ld_unit_zero (S := S5000x1) layer1_offsets,
    View.ld_unit_zero (S := S128x128) layer1_offsets, View.ld_unit_zero (S := S1x128) layer1_offsets]
  funext j
  obtain ⟨p, q, rfl⟩ : ∃ (p : Fin 5000) (q : Fin 128), j = ix2 p q := ⟨j 0, j 1, eq_ix2 j⟩
  have ht : t.val < 20 := lt_of_lt_of_eq t.isLt N_0
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index t
  have hr : 5000 * t.val + p.val < 100000 := by omega
  refine (layer1_stored V c t p q ⟨5000 * t.val + p.val, hr⟩ rfl).trans ?_
  show hidden (V c main_arg0) (V c main_v22) (V c main_v12) (V c main_v23) (V c main_v25) (V c main_v24) (V c main_v26) (V c main_v27) (V c main_v28) (V c main_v29) (ix2 ⟨5000 * t.val + p.val, hr⟩ q)
    = hidden (V c main_arg0) (V c main_v22) (V c main_v12) (V c main_v23) (V c main_v25) (V c main_v24) (V c main_v26) (V c main_v27) (V c main_v28) (V c main_v29) (((cfg0.win 10).blk t).view.emb (ix2 p q))
  refine congrArg _ ?_
  funext a; apply Fin.ext
  match a with
  | ⟨0, _⟩ => show 5000 * t.val + p.val = win0_10.index t (0 : Fin 2) * 5000 + 1 * p.val; omega
  | ⟨1, _⟩ => show q.val = win0_10.index t (1 : Fin 2) * 128 + 1 * q.val; omega

end

/-- An index of the output array is in point `t`'s block iff each coordinate is in the block's range on its axis. -/
theorem layer1_mem_block (t : Fin cfg0.N) (i : S100000x128.Idx) :
    i ∈ ((cfg0.win 10).blk t).view.set ↔ ∀ a : Fin 2, win0_10.index t a * S5000x128.size a ≤ (i a).val
      ∧ (i a).val < win0_10.index t a * S5000x128.size a + S5000x128.size a := by
  show i ∈ ((View.whole main_v30).slice (win0_10.rect t)).set ↔ _
  rw [View.set_slice_whole, Rect.mem_set_unit]
  exact Iff.rfl

/-- Row `r` of the output is written back by point `r / 5000`: the 20 blocks cover the array. -/
theorem layer1_cover (i : S100000x128.Idx) :
    ∃ t : Fin cfg0.N, (cfg0.win 10).flush t = true ∧ i ∈ ((cfg0.win 10).blk t).view.set := by
  have h0 : (i 0).val < 100000 := (i 0).isLt
  have h1 : (i 1).val < 128 := (i 1).isLt
  have hlt : (i 0).val / 5000 < cfg0.N := by rw [show cfg0.N = 20 from N_0]; omega
  obtain ⟨e0_0, e0_1, e1_0, e1_1, e2_0, e2_1, e3_0, e3_1, e4_0, e4_1, e5_0, e5_1, e6_0, e6_1, e7_0, e7_1, e8_0, e8_1, e9_0, e9_1, e10_0, e10_1⟩ := layer1_index ⟨(i 0).val / 5000, hlt⟩
  have e0' : win0_10.index ⟨(i 0).val / 5000, hlt⟩ (0 : Fin 2) = (i 0).val / 5000 := e10_0
  refine ⟨⟨(i 0).val / 5000, hlt⟩, flush0_10 _, ?_⟩
  rw [layer1_mem_block]
  intro a
  match a with
  | ⟨0, _⟩ =>
    show win0_10.index ⟨(i 0).val / 5000, hlt⟩ (0 : Fin 2) * 5000 ≤ (i 0).val
      ∧ (i 0).val < win0_10.index ⟨(i 0).val / 5000, hlt⟩ (0 : Fin 2) * 5000 + 5000
    omega
  | ⟨1, _⟩ =>
    show win0_10.index ⟨(i 0).val / 5000, hlt⟩ (1 : Fin 2) * 128 ≤ (i 1).val
      ∧ (i 1).val < win0_10.index ⟨(i 0).val / 5000, hlt⟩ (1 : Fin 2) * 128 + 128
    omega

/-- After the first layer's 20 grid points its output array is `hidden` of the arrays it was entered with,
    whatever those are. -/
theorem layer1_array (V : (c : Dev nD) → (b : Ref sig .tc) → Buf (Elt Ideal) ((c : Thread nD τ).loc b)) (c : Dev nD) :
    (dat0 (F := Ideal) V c).arrAt 10 cfg0.N
      = hidden (V c main_arg0) (V c main_v22) (V c main_v12) (V c main_v23) (V c main_v25) (V c main_v24)
          (V c main_v26) (V c main_v27) (V c main_v28) (V c main_v29) := by
  exact (dat0 (F := Ideal) V c).arrAt_eq_of_cover 10
    (hidden (V c main_arg0) (V c main_v22) (V c main_v12) (V c main_v23) (V c main_v25) (V c main_v24)
      (V c main_v26) (V c main_v27) (V c main_v28) (V c main_v29))
    (fun t _ => layer1_flushed V c t) layer1_cover

end Cert.Sage.Region

end
-- ==== Proof.Body1.lean ====
/-
  The second layer's arithmetic on one block of 5000 nodes, read at one element: row `p` of the block, output
  feature `q`. Two matrix products as sums over the 128 hidden features, and the bias row broadcast down the block.
-/
import proofs.«142155_j30889404793605_2_alg».proof.Proof.Gen.KernelIdeal.Skeleton
import proofs.«142155_j30889404793605_2_alg».proof.Proof.Spec
import proofs.«142155_j30889404793605_2_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Body

open Cert.KernelIdeal Cert.KernelIdeal.Gen Cert.Sage Idealize.ShloMosaic Idealize.ShloMosaic.ValueIdx

/-- A `[5000, 128] × [128, 64]` product accumulated into zero, read at `(p, q)`: the sum over the 128 contracted
    features of row `p` of the left factor against column `q` of the right one. The contraction shape has one axis of
    extent 128, so its index is one coordinate `k`; the left operand is read at `(p, k)` (axis 0 kept from the output,
    axis 1 contracted) and the right at `(k, q)` (axis 0 contracted, axis 1 kept). -/
theorem matmul_5000x128_128x64_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := funext fun a => Fin.ext (by
    match a with
    | ⟨0, _⟩ =>
      show (dot_S5000x128_S128x64_S5000x64_1_0_0_1_n_n.lhsIdx (ix2 p q) _ 0).val = p.val
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl
    | ⟨1, _⟩ => exact (dot_S5000x128_S128x64_S5000x64_1_0_0_1_n_n.lhsIdx_val_of_single rfl (ix2 p q) _).trans hk)
  have er : dot_S5000x128_S128x64_S5000x64_1_0_0_1_n_n.rhsIdx (ix2 p q)
      ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl (ix2 p q) _).trans hk
    | ⟨1, _⟩ =>
      show (dot_S5000x128_S128x64_S5000x64_1_0_0_1_n_n.rhsIdx (ix2 p q) _ 1).val = q.val
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
  rw [el, er]

/-- What the second layer's body stores at `(p, q)` of its output block, from the six blocks it loads
    (in window order: hidden features, their neighbour sums, inverse degrees, the two weight matrices around the bias). -/
theorem layer2_payload (x0 x1 : FVec Ideal S5000x128 .f32) (x2 : FVec Ideal S5000x1 .f32) (x3 : FVec Ideal S128x64 .f32)
    (x4 : FVec Ideal S1x64 .f32) (x5 : FVec Ideal S128x64 .f32) (p : Fin 5000) (q : Fin 64) :
    k1_pay1 (F := Ideal) x0 x1 x2 x3 x5 x4 (ix2 p q)
      = ((∑ k : Fin 128, (x1 (ix2 p k) * x2 (ix2 p (0 : Fin 1))) * x3 (ix2 k q))
          + ∑ k : Fin 128, x0 (ix2 p k) * x5 (ix2 k q)) + x4 (ix2 (0 : Fin 1) q) := by
  -- the neighbour term: the change of float format is the identity on the extended reals, the elementwise product
  -- reads both factors at `(p, k)`, and the inverse-degree column broadcast across the block reads row `p` of it
  have hA : matmul dot_S5000x128_S128x64_S5000x64_1_0_0_1_n_n none
        (truncf .bf16 (mulf x1 (broadcastTo S5000x128 x2 broadcasts_S5000x1_S5000x128)) bitsLt_bf16_f32)
        (truncf .bf16 x3 bitsLt_bf16_f32) (constant (F := Ideal) S5000x64 .f32 0x00000000#32) (ix2 p q)
      = ∑ k : Fin 128, (x1 (ix2 p k) * x2 (ix2 p (0 : Fin 1))) * x3 (ix2 k q) := by
    refine (matmul_5000x128_128x64_apply _ _ p q).trans (Finset.sum_congr rfl fun k _ => ?_)
    show (x1 (ix2 p k) * broadcastTo S5000x128 x2 broadcasts_S5000x1_S5000x128 (ix2 p k)) * x3 (ix2 k q) = _
    rw [Cert.Lib.broadcastTo_a1_ab_apply]
  -- the node's own term
  have hB : matmul dot_S5000x128_S128x64_S5000x64_1_0_0_1_n_n none
        (truncf .bf16 x0 bitsLt_bf16_f32) (truncf .bf16 x5 bitsLt_bf16_f32)
        (constant (F := Ideal) S5000x64 .f32 0x00000000#32) (ix2 p q)
      = ∑ k : Fin 128, x0 (ix2 p k) * x5 (ix2 k q) :=
    matmul_5000x128_128x64_apply _ _ p q
  -- the bias row broadcast down the block reads its column `q`
  have hC : broadcastTo S5000x64 x4 broadcasts_S1x64_S5000x64 (ix2 p q) = x4 (ix2 (0 : Fin 1) q) :=
    broadcastTo_1b_ab_apply x4 broadcasts_S1x64_S5000x64 p q
  unfold k1_pay1
  -- a reshape to the same shape is the identity; what is left is a sum of the three terms read at `(p, q)`
  simp only [shapeCast_self]
  exact congrArg₂ (· + ·) (congrArg₂ (· + ·) hA hB) hC

end Cert.Sage.Body

end
-- ==== Proof.Region1.lean ====
/-
  The second layer over the whole graph, from its blocks: point `t` of its 20 computes rows 5000·t … 5000·t + 4999 of
  the output from the same rows of the hidden features, of their neighbour sums and of the inverse-degree column, and
  from the whole of the layer's parameter arrays.
-/
import proofs.«142155_j30889404793605_2_alg».proof.Proof.Gen.KernelIdeal.Frame
import proofs.«142155_j30889404793605_2_alg».proof.Proof.Spec
import proofs.«142155_j30889404793605_2_alg».proof.Proof.Body1
import Idealize.ShloMosaic.Lib.Pipeline.Value

noncomputable section

namespace Cert.Sage.Region

open Cert.KernelIdeal Cert.KernelIdeal.Gen Cert.Sage Idealize.ShloMosaic Idealize.ShloMosaic.TcCoe Idealize.ShloMosaic.ValueIdx Idealize.SL.Sem
open Idealize.ShloMosaic.Pipeline (Dat)

/-- The zero offsets of a whole-block load or store. -/
theorem layer2_offsets : (![0, 0] : Fin 2 → Nat) = fun _ => 0 := funext fun a => by fin_cases a <;> rfl

/-- The block index of every window at point `t`, decided over the 20 points: the three row-blocked inputs and the
    output sit at block `(t, 0)`, the parameter arrays at block `(0, 0)`. -/
theorem layer2_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b)) (c : Dev nD)

/-- Row `p` of the hidden features' block at point `t` is row `5000·t + p` of the array. -/
theorem layer2_block0 (t : Fin cfg1.N) (p : Fin 5000) (k : Fin 128) (r : Fin 100000) (hr : r.val = 5000 * t.val + p.val) :
    (iblk1 (F := Ideal) V c 0 t : Vec Ideal S5000x128 .f32) (ix2 p k) = (V c main_v30 : Arr 100000 128) (ix2 r k) := by
  obtain ⟨e0, e1, -⟩ := layer2_index t
  show V c main_v30 (((cfg1.win 0).blk t).view.emb (ix2 p k)) = V c main_v30 (ix2 r k)
  refine congrArg _ ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row `p` of the neighbour sums' block at point `t` is row `5000·t + p` of the array. -/
theorem layer2_block1 (t : Fin cfg1.N) (p : Fin 5000) (k : Fin 128) (r : Fin 100000) (hr : r.val = 5000 * t.val + p.val) :
    (iblk1 (F := Ideal) V c 1 t : Vec Ideal S5000x128 .f32) (ix2 p k) = (V c main_v40 : Arr 100000 128) (ix2 r k) := by
  obtain ⟨-, -, e0, e1, -⟩ := layer2_index t
  show V c main_v40 (((cfg1.win 1).blk t).view.emb (ix2 p k)) = V c main_v40 (ix2 r k)
  refine congrArg _ ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Row `p` of the inverse-degree column's block at point `t` is row `5000·t + p` of the column. -/
theorem layer2_block2 (t : Fin cfg1.N) (p : Fin 5000) (k : Fin 1) (r : Fin 100000) (hr : r.val = 5000 * t.val + p.val) :
    (iblk1 (F := Ideal) V c 2 t : Vec Ideal S5000x1 .f32) (ix2 p k) = (V c main_v12 : Arr 100000 1) (ix2 r k) := by
  obtain ⟨-, -, -, -, e0, e1, -⟩ := layer2_index t
  show V c main_v12 (((cfg1.win 2).blk t).view.emb (ix2 p k)) = V c main_v12 (ix2 r k)
  refine congrArg _ ?_
  funext a; apply Fin.ext
  match a with
  | ⟨0, _⟩ => show win1_2.index t (0 : Fin 2) * 5000 + 1 * p.val = r.val; omega
  | ⟨1, _⟩ => show win1_2.index t (1 : Fin 2) * 1 + 1 * k.val = k.val; omega

/-- The neighbours' weight matrix is staged whole at every point. -/
theorem layer2_block3 (t : Fin cfg1.N) (k : Fin 128) (q : Fin 64) :
    (iblk1 (F := Ideal) V c 3 t : Vec Ideal S128x64 .f32) (ix2 k q) = (V c main_v41 : Arr 128 64) (ix2 k q) := by
  obtain ⟨-, -, -, -, -, -, e0, e1, -⟩ := layer2_index t
  show V c main_v41 (((cfg1.win 3).blk t).view.emb (ix2 k q)) = V c main_v41 (ix2 k q)
  refine congrArg _ ?_
  funext a; apply Fin.ext
  match a with
  | ⟨0, _⟩ => show win1_3.index t (0 : Fin 2) * 128 + 1 * k.val = k.val; omega
  | ⟨1, _⟩ => show win1_3.index t (1 : Fin 2) * 64 + 1 * q.val = q.val; omega

/-- The bias row is staged whole at every point. -/
theorem layer2_block4 (t : Fin cfg1.N) (k : Fin 1) (q : Fin 64) :
    (iblk1 (F := Ideal) V c 4 t : Vec Ideal S1x64 .f32) (ix2 k q) = (V c main_v43 : Arr 1 64) (ix2 k q) := by
  obtain ⟨-, -, -, -, -, -, -, -, e0, e1, -⟩ := layer2_index t
  show V c main_v43 (((cfg1.win 4).blk t).view.emb (ix2 k q)) = V c main_v43 (ix2 k q)
  refine congrArg _ ?_
  funext a; apply Fin.ext
  match a with
  | ⟨0, _⟩ => show win1_4.index t (0 : Fin 2) * 1 + 1 * k.val = k.val; omega
  | ⟨1, _⟩ => show win1_4.index t (1 : Fin 2) * 64 + 1 * q.val = q.val; omega

/-- The node's own weight matrix is staged whole at every point. -/
theorem layer2_block5 (t : Fin cfg1.N) (k : Fin 128) (q : Fin 64) :
    (iblk1 (F := Ideal) V c 5 t : Vec Ideal S128x64 .f32) (ix2 k q) = (V c main_v42 : Arr 128 64) (ix2 k q) := by
  obtain ⟨-, -, -, -, -, -, -, -, -, -, e0, e1, -⟩ := layer2_index t
  show V c main_v42 (((cfg1.win 5).blk t).view.emb (ix2 k q)) = V c main_v42 (ix2 k q)
  refine congrArg _ ?_
  funext a; apply Fin.ext
  match a with
  | ⟨0, _⟩ => show win1_5.index t (0 : Fin 2) * 128 + 1 * k.val = k.val; omega
  | ⟨1, _⟩ => show win1_5.index t (1 : Fin 2) * 64 + 1 * q.val = q.val; omega

/-- What the body stores at `(p, q)` of its block at point `t` is the layer at node `5000·t + p`, feature `q`. -/
theorem layer2_stored (t : Fin cfg1.N) (p : Fin 5000) (q : Fin 64) (r : Fin 100000) (hr : r.val = 5000 * t.val + p.val) :
    k1_pay1 (F := Ideal) (iblk1 V c 0 t) (iblk1 V c 1 t) (iblk1 V c 2 t) (iblk1 V c 3 t) (iblk1 V c 5 t) (iblk1 V c 4 t) (ix2 p q)
      = out (V c main_v30) (V c main_v40) (V c main_v12) (V c main_v41) (V c main_v43) (V c main_v42) (ix2 r q) := by
  refine (Body.layer2_payload _ _ _ _ _ _ p q).trans ?_
  rw [out_ix2]
  unfold outAt
  simp only [layer2_block0 V c t p _ r hr, layer2_block1 V c t p _ r hr, layer2_block2 V c t p _ r hr,
    layer2_block3 V c t, layer2_block4 V c t, layer2_block5 V c t]

/-- What point `t` writes back is block `t` of the layer's value on the arrays the layer was entered with. -/
theorem layer2_flushed (t : Fin cfg1.N) :
    (dat1 (F := Ideal) V c).flushed 6 t
      = ((cfg1.win 6).blk t).view.read (Elt Ideal) (out (V c main_v30) (V c main_v40) (V c main_v12) (V c main_v41) (V c main_v43) (V c main_v42)) := by
  show (cfg1.win 6).cut (grid1.coords t) ((dat1 V c).after 6 t) = _
  rw [after1_6]
  unfold out1_6
  rw [View.canon_unit_zero layer2_offsets]
  simp only [View.ld_unit_zero (S := S5000x128) layer2_offsets, View.ld_unit_zero (S := S5000x1) layer2_offsets,
    View.ld_unit_zero (S := S128x64) layer2_offsets, View.ld_unit_zero (S := S1x64) layer2_offsets]
  funext j
  obtain ⟨p, q, rfl⟩ : ∃ (p : Fin 5000) (q : Fin 64), j = ix2 p q := ⟨j 0, j 1, eq_ix2 j⟩
  have ht : t.val < 20 := lt_of_lt_of_eq t.isLt N_1
  obtain ⟨-, -, -, -, -, -, -, -, -, -, -, -, e0, e1⟩ := layer2_index t
  have hr : 5000 * t.val + p.val < 100000 := by omega
  refine (layer2_stored V c t p q ⟨5000 * t.val + p.val, hr⟩ rfl).trans ?_
  show out (V c main_v30) (V c main_v40) (V c main_v12) (V c main_v41) (V c main_v43) (V c main_v42) (ix2 ⟨5000 * t.val + p.val, hr⟩ q)
    = out (V c main_v30) (V c main_v40) (V c main_v12) (V c main_v41) (V c main_v43) (V c main_v42) (((cfg1.win 6).blk t).view.emb (ix2 p q))
  refine congrArg _ ?_
  funext a; apply Fin.ext
  match a with
  | ⟨0, _⟩ => show 5000 * t.val + p.val = win1_6.index t (0 : Fin 2) * 5000 + 1 * p.val; omega
  | ⟨1, _⟩ => show q.val = win1_6.index t (1 : Fin 2) * 64 + 1 * q.val; omega

end

/-- An index of the output array is in point `t`'s block iff each coordinate is in the block's range on its axis. -/
theorem layer2_mem_block (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v44).slice (win1_6.rect t)).set ↔ _
  rw [View.set_slice_whole, Rect.mem_set_unit]
  exact Iff.rfl

/-- Row `r` of the output is written back by point `r / 5000`: the 20 blocks cover the array. -/
theorem layer2_cover (i : S100000x64.Idx) :
    ∃ t : Fin cfg1.N, (cfg1.win 6).flush t = true ∧ i ∈ ((cfg1.win 6).blk t).view.set := by
  have h0 : (i 0).val < 100000 := (i 0).isLt
  have h1 : (i 1).val < 64 := (i 1).isLt
  have hlt : (i 0).val / 5000 < cfg1.N := by rw [show cfg1.N = 20 from N_1]; omega
  obtain ⟨-, -, -, -, -, -, -, -, -, -, -, -, e0, e1⟩ := layer2_index ⟨(i 0).val / 5000, hlt⟩
  have e0' : win1_6.index ⟨(i 0).val / 5000, hlt⟩ (0 : Fin 2) = (i 0).val / 5000 := e0
  refine ⟨⟨(i 0).val / 5000, hlt⟩, flush1_6 _, ?_⟩
  rw [layer2_mem_block]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    omega

/-- After the second layer's 20 grid points its output array is `out` of the arrays it was entered with,
    whatever those are. -/
theorem layer2_array (V : (c : Dev nD) → (b : Ref sig .tc) → Buf (Elt Ideal) ((c : Thread nD τ).loc b)) (c : Dev nD) :
    (dat1 (F := Ideal) V c).arrAt 6 cfg1.N
      = out (V c main_v30) (V c main_v40) (V c main_v12) (V c main_v41) (V c main_v43) (V c main_v42) := by
  exact (dat1 (F := Ideal) V c).arrAt_eq_of_cover 6
    (out (V c main_v30) (V c main_v40) (V c main_v12) (V c main_v41) (V c main_v43) (V c main_v42))
    (fun t _ => layer2_flushed V c t) layer2_cover

end Cert.Sage.Region

end
-- ==== Proof.KernelValue.lean ====
/-
  The idealized kernel program's result. Its run ends with the result buffer at what the second layer's grid leaves;
  that is `out` of what the second layer was entered with, which the host built from the first layer's output —
  `hidden` of what the first layer was entered with, which the host built from the launch arguments. Substituting,
  the result is the network `program` of the twelve arguments.
-/
import proofs.«142155_j30889404793605_2_alg».proof.Proof.RunK
import proofs.«142155_j30889404793605_2_alg».proof.Proof.HostK
import proofs.«142155_j30889404793605_2_alg».proof.Proof.Region0
import proofs.«142155_j30889404793605_2_alg».proof.Proof.Region1

noncomputable section

namespace Cert.Sage.KValue

open Cert.KernelIdeal Cert.KernelIdeal.Gen Cert.Sage Cert.Sage.Host Cert.Sage.KHost
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- After the two layers the result buffer's contents are the network of the launch arguments. -/
theorem result_value (c : Dev nD) : W4 m ρ c (Proc.devRef .tc main_v44) = program (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W4 m ρ c (Proc.devRef .tc main_v44) = (dat1 (V3 m ρ) c).arrAt 6 cfg1.N from W4_arr m ρ c 6]
  rw [Region.layer2_array (V3 m ρ) c, V3_v30, V3_v40, V3_v12, V3_v41, V3_v43, V3_v42, Region.layer1_array (V1 m ρ) c,
    V1_arg0, V1_v22, V1_v12, V1_v23, V1_v25, V1_v24, V1_v26, V1_v27, V1_v28, V1_v29]
  rfl

/-- Every weakly fair execution of the idealized kernel program terminates, nothing faulting, with the result buffer at
    the network of the launch arguments and the arguments unchanged. -/
theorem run : θ_run defs (onTc (τ := τ) (main (F := Ideal))) ⟨m, fun _ => 0, ρ⟩ (fun r => ∀ c : Dev nD,
      r.2.mem ((c.tc : Thread nD τ).loc main_v44) = program (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_value m ρ c), (h c).2⟩) (KRun.run_named m ρ)

end Cert.Sage.KValue

end
-- ==== Proof.LibColumnCast.lean ====
/-
  A vector kept as a column, read at an index: an `[a]` array cast to `[a, 1]` holds, at `(i, 0)`, the vector's entry `i`.
  The cast keeps the row-major position, and the position of `(i, u)` in `[a, 1]` is `i · 1 + u = i`. This is how a
  per-row quantity computed as a vector (a count, a row sum) becomes the column that is then broadcast along the rows
  of a matrix.
-/
import Idealize.ShloMosaic.Lib.Pipeline.Value
import Idealize.ShloMosaic.Lib.ValueIdx
import Idealize.ShloMosaic.Lib.ValueLayout

namespace Cert.Lib

open Idealize.ShloMosaic Idealize.ShloMosaic.ValueIdx

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.RefValue.lean ====
/-
  The reference computes the same network. Stage by stage it is: neighbour sums divided by the in-degree (at least one),
  through the first weight matrix, plus the bias, plus the node's own features through the second matrix; normalised,
  scaled, shifted, rectified; and the same again without the normalisation. Read at an element this is `hidden` and
  `out` of the host-side arrays, once the quotient by the degree is rewritten as the product with its reciprocal
  (the degree is at least one, so not zero) and the bias is moved across the second product.
-/
import proofs.«142155_j30889404793605_2_alg».proof.Proof.Gen.ReferenceIdeal.Read
import proofs.«142155_j30889404793605_2_alg».proof.Proof.Spec
import proofs.«142155_j30889404793605_2_alg».proof.Proof.HostTerms
import proofs.«142155_j30889404793605_2_alg».proof.Proof.LibColumnCast
import Idealize.ShloMosaic.Lib.ValueIdx
import Idealize.ShloMosaic.Lib.ValueLayout
import Idealize.ShloMosaic.Lib.Pipeline.Value

noncomputable section

namespace Cert.Sage.Ref

open Cert.ReferenceIdeal Cert.ReferenceIdeal.Read Cert.Sage Cert.Sage.Host Cert.Lib Idealize.ShloMosaic Idealize.ShloMosaic.ValueIdx

/-! ### The index columns, the neighbour sums and the in-degrees are the host-side terms -/

theorem dst_eq (x1 : IVec S2x1600000 32) : val_main_v12 (F := Ideal) x1 = dstIdx x1 := by
  unfold val_main_v12 val_main_v3 val_main_v2 dstIdx
  rfl

theorem dst_eq16 (x1 : IVec S2x1600000 32) : val_main_v16 (F := Ideal) x1 = dstIdx x1 := by
  unfold val_main_v16 val_main_v3 val_main_v2 dstIdx
  rfl

theorem src_eq (x1 : IVec S2x1600000 32) : val_main_v9 (F := Ideal) x1 = srcIdx x1 := by
  unfold val_main_v9 val_main_v8 val_main_v5 val_main_v7 val_main_v4 val_main_v6 val_main_c val_main_c_0 val_main_v1 val_main_v0 srcIdx srcRow
  rfl

theorem agg_eq (x0 : FVec Ideal S100000x128 .f32) (x1 : IVec S2x1600000 32) :
    val_main_v13 (F := Ideal) x0 x1 = agg x1 x0 := by
  unfold val_main_v13 val_main_v10 val_main_v11 val_main_cst agg
  rw [dst_eq, src_eq]
  rfl

theorem deg_eq (x1 : IVec S2x1600000 32) : val_main_v17 (F := Ideal) x1 = deg x1 := by
  unfold val_main_v17 val_main_v15 val_main_cst_2 val_main_v14 val_main_cst_1 deg
  rw [dst_eq16]
  rfl

/-! ### The host-side arrays read at an index -/

/-- The binary word of one denotes one. -/
theorem one_word : Ideal.ofBits .f32 0x3F800000#32 = 1 := by
  simp [Ideal.ofBits, Ideal.ieee, -EReal.coe_mul]; norm_num

theorem tr128_at (w : FVec Ideal S128x128 .f32) (k j : Fin 128) : tr128 w (ix2 k j) = w (ix2 j k) := by
  unfold tr128
  exact transpose_ix2_apply w _ k j

theorem tr64_at (w : FVec Ideal S64x128 .f32) (k : Fin 128) (j : Fin 64) : tr64 w (ix2 k j) = w (ix2 j k) := by
  unfold tr64
  exact transpose_ix2_apply w _ k j

theorem row128_at (v : FVec Ideal S128 .f32) (j : Fin 128) : row128 v (ix2 (0 : Fin 1) j) = v (ix1 j) := by
  unfold row128
  exact shapeCast_a_1a_apply v _ 0 j

theorem row64_at (v : FVec Ideal S64 .f32) (j : Fin 64) : row64 v (ix2 (0 : Fin 1) j) = v (ix1 j) := by
  unfold row64
  exact shapeCast_a_1a_apply v _ 0 j

/-- The host's quotient of two arrays, read at an index. -/
theorem hostDivf_apply {s : Shape} {φ : FTy} (a b : FVec Ideal s φ) (i : s.Idx) : Host.divf a b i = Ideal.div (a i) (b i) := rfl

/-- A constant spread over an array reads the constant's value everywhere. -/
theorem bcast_const_apply {t : Shape} (h : S_.BroadcastsInDim t ![]) (w : BitVec 32) (i : t.Idx) :
    broadcastInDim t ![] h (constant (F := Ideal) S_ .f32 w) i = Ideal.ofBits .f32 w := rfl

/-- The reciprocal column at row `r` is one over the larger of the in-degree and one. -/
theorem invDeg_at (e : IVec S2x1600000 32) (r : Fin 100000) :
    invDeg e (ix2 r (0 : Fin 1)) = Ideal.div 1 (max (deg e (ix1 r)) 1) := by
  unfold invDeg
  rw [hostDivf_apply, maximumf_apply, bcast_const_apply, one_word, shapeCast_a_a1_apply]

/-! ### The reference's first layer, stage by stage, read at node `r`, feature `j` -/

/-- The degree floor broadcast along the features: every feature of node `r` sees `max (deg r) 1`. -/
theorem v21_at (x1 : IVec S2x1600000 32) (r : Fin 100000) (k : Fin 128) :
    val_main_v21 (F := Ideal) x1 (ix2 r k) = max (deg x1 (ix1 r)) 1 := by
  have e : idx_main_v20 (idx_main_v21 (ix2 r k)) = ix1 r :=
    funext fun a => Fin.ext (by match a with | ⟨0, _⟩ => rfl)
  rw [val_main_v21_apply, val_main_v20_apply, val_main_v19_apply, val_main_v18_apply, val_main_cst_3_apply, deg_eq, e,
    Ideal.maximumf_def, Ideal.ofBits_def, one_word]

/-- The mean: the neighbour sum divided by the floored degree is the sum times the reciprocal column. -/
theorem v22_at (x0 : FVec Ideal S100000x128 .f32) (x1 : IVec S2x1600000 32) (r : Fin 100000) (k : Fin 128) :
    val_main_v22 (F := Ideal) x0 x1 (ix2 r k) = agg x1 x0 (ix2 r k) * invDeg x1 (ix2 r (0 : Fin 1)) := by
  rw [val_main_v22_apply, agg_eq, v21_at, invDeg_at, Ideal.hostDivf_def]
  exact div_eq_mul_one_div _ _ (max_one_ne_zero _)

theorem v23_eq (x2 : FVec Ideal S128x128 .f32) : val_main_v23 (F := Ideal) x2 = tr128 x2 := by
  unfold val_main_v23 tr128
  rfl

theorem v28_eq (x4 : FVec Ideal S128x128 .f32) : val_main_v28 (F := Ideal) x4 = tr128 x4 := by
  unfold val_main_v28 tr128
  rfl

/-- The neighbour term of the first layer. -/
theorem v24_at (x0 : FVec Ideal S100000x128 .f32) (x1 : IVec S2x1600000 32) (x2 : FVec Ideal S128x128 .f32) (r : Fin 100000) (j : Fin 128) :
    val_main_v24 (F := Ideal) x0 x1 x2 (ix2 r j)
      = ∑ k : Fin 128, (agg x1 x0 (ix2 r k) * invDeg x1 (ix2 r (0 : Fin 1))) * tr128 x2 (ix2 k j) := by
  rw [val_main_v24_apply]
  refine Finset.sum_congr rfl fun k _ => ?_
  have e1 : lidx_main_v24 (ix2 r j) k = ix2 r k :=
    funext fun a => Fin.ext (by match a with | ⟨0, _⟩ => rfl | ⟨1, _⟩ => rfl)
  have e2 : ridx_main_v24 (ix2 r j) k = ix2 k j :=
    funext fun a => Fin.ext (by match a with | ⟨0, _⟩ => rfl | ⟨1, _⟩ => rfl)
  rw [e1, e2, v22_at, v23_eq]

/-- The node's own term of the first layer. -/
theorem v29_at (x0 : FVec Ideal S100000x128 .f32) (x4 : FVec Ideal S128x128 .f32) (r : Fin 100000) (j : Fin 128) :
    val_main_v29 (F := Ideal) x0 x4 (ix2 r j) = ∑ k : Fin 128, x0 (ix2 r k) * tr128 x4 (ix2 k j) := by
  rw [val_main_v29_apply]
  refine Finset.sum_congr rfl fun k _ => ?_
  have e1 : lidx_main_v29 (ix2 r j) k = ix2 r k :=
    funext fun a => Fin.ext (by match a with | ⟨0, _⟩ => rfl | ⟨1, _⟩ => rfl)
  have e2 : ridx_main_v29 (ix2 r j) k = ix2 k j :=
    funext fun a => Fin.ext (by match a with | ⟨0, _⟩ => rfl | ⟨1, _⟩ => rfl)
  rw [e1, e2, v28_eq]

/-- A parameter vector spread over the nodes reads, at `(r, j)`, the vector at `j`: the bias. -/
theorem v26_at (x3 : FVec Ideal S128 .f32) (r : Fin 100000) (j : Fin 128) : val_main_v26 (F := Ideal) x3 (ix2 r j) = x3 (ix1 j) := by
  have e : idx_main_v25 (idx_main_v26 (ix2 r j)) = ix1 j := funext fun a => Fin.ext (by match a with | ⟨0, _⟩ => rfl)
  rw [val_main_v26_apply, val_main_v25_apply, e]

/-- The running mean. -/
theorem v32_at (x7 : FVec Ideal S128 .f32) (r : Fin 100000) (j : Fin 128) : val_main_v32 (F := Ideal) x7 (ix2 r j) = x7 (ix1 j) := by
  have e : idx_main_v31 (idx_main_v32 (ix2 r j)) = ix1 j := funext fun a => Fin.ext (by match a with | ⟨0, _⟩ => rfl)
  rw [val_main_v32_apply, val_main_v31_apply, e]

/-- The reciprocal standard deviation. -/
theorem v38_at (x8 : FVec Ideal S128 .f32) (r : Fin 100000) (j : Fin 128) :
    val_main_v38 (F := Ideal) x8 (ix2 r j) = Ideal.rsqrt (x8 (ix1 j) + eps) := by
  have e : idx_main_v37 (idx_main_v38 (ix2 r j)) = ix1 j := funext fun a => Fin.ext (by match a with | ⟨0, _⟩ => rfl)
  rw [val_main_v38_apply, val_main_v37_apply, e, val_main_v36_apply, val_main_v35_apply, val_main_v34_apply, val_main_cst_4_apply,
    Ideal.hostUnary_rsqrt_def, Ideal.addf_def, Ideal.ofBits_def]

/-- The scale. -/
theorem v41_at (x5 : FVec Ideal S128 .f32) (r : Fin 100000) (j : Fin 128) : val_main_v41 (F := Ideal) x5 (ix2 r j) = x5 (ix1 j) := by
  have e : idx_main_v40 (idx_main_v41 (ix2 r j)) = ix1 j := funext fun a => Fin.ext (by match a with | ⟨0, _⟩ => rfl)
  rw [val_main_v41_apply, val_main_v40_apply, e]

/-- The shift. -/
theorem v44_at (x6 : FVec Ideal S128 .f32) (r : Fin 100000) (j : Fin 128) : val_main_v44 (F := Ideal) x6 (ix2 r j) = x6 (ix1 j) := by
  have e : idx_main_v43 (idx_main_v44 (ix2 r j)) = ix1 j := funext fun a => Fin.ext (by match a with | ⟨0, _⟩ => rfl)
  rw [val_main_v44_apply, val_main_v43_apply, e]

/-- The rectifier's floor. -/
theorem relu0_at (i : S100000x128.Idx) : val_main_call0_v0 (F := Ideal) i = floor0 := by
  rw [val_main_call0_v0_apply, val_main_call0_cst_apply, Ideal.ofBits_def]

/-- The reference's first layer is the host-side `layer1`. The one difference is where the bias is added: the reference adds
    it to the neighbour term before the node's own term, `layer1` after both. -/
theorem layer1_eq (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) :
    val_main_v46 (F := Ideal) x0 x1 x2 x3 x4 x5 x6 x7 x8 = layer1 x0 x1 x2 x3 x4 x5 x6 x7 x8 := by
  funext i
  obtain ⟨r, j, rfl⟩ : ∃ (r : Fin 100000) (j : Fin 128), i = ix2 r j := ⟨i 0, i 1, eq_ix2 i⟩
  rw [val_main_v46_apply, val_main_v45_apply, val_main_v42_apply, val_main_v39_apply, val_main_v33_apply, val_main_v30_apply,
    val_main_v27_apply, v24_at, v29_at, v26_at, v32_at, v38_at, v41_at, v44_at, relu0_at,
    Ideal.maximumf_def, Ideal.addf_def, Ideal.mulf_def, Ideal.mulf_def, Ideal.subf_def, Ideal.addf_def, Ideal.addf_def]
  unfold layer1
  rw [hidden_ix2]
  unfold hiddenAt
  rw [row128_at, row128_at, row128_at, row128_at, row128_at, add_right_comm]

/-! ### The second layer -/

theorem dst_eq55 (x1 : IVec S2x1600000 32) : val_main_v55 (F := Ideal) x1 = dstIdx x1 := by
  unfold val_main_v55 val_main_v3 val_main_v2 dstIdx
  rfl

theorem dst_eq59 (x1 : IVec S2x1600000 32) : val_main_v59 (F := Ideal) x1 = dstIdx x1 := by
  unfold val_main_v59 val_main_v3 val_main_v2 dstIdx
  rfl

theorem src_eq52 (x1 : IVec S2x1600000 32) : val_main_v52 (F := Ideal) x1 = srcIdx x1 := by
  unfold val_main_v52 val_main_v51 val_main_v48 val_main_v50 val_main_v47 val_main_v49 val_main_c_5 val_main_c_6 val_main_v1 val_main_v0 srcIdx srcRow
  rfl

/-- The second layer's neighbour sums are those of the first layer's output. -/
theorem agg2_eq (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) :
    val_main_v56 (F := Ideal) x0 x1 x2 x3 x4 x5 x6 x7 x8 = agg x1 (val_main_v46 (F := Ideal) x0 x1 x2 x3 x4 x5 x6 x7 x8) := by
  unfold val_main_v56 val_main_v53 val_main_v54 val_main_cst_7 agg
  rw [dst_eq55, src_eq52]
  rfl

theorem deg_eq60 (x1 : IVec S2x1600000 32) : val_main_v60 (F := Ideal) x1 = deg x1 := by
  unfold val_main_v60 val_main_v58 val_main_cst_9 val_main_v57 val_main_cst_8 deg
  rw [dst_eq59]
  rfl

theorem v64_at (x1 : IVec S2x1600000 32) (r : Fin 100000) (k : Fin 128) :
    val_main_v64 (F := Ideal) x1 (ix2 r k) = max (deg x1 (ix1 r)) 1 := by
  have e : idx_main_v63 (idx_main_v64 (ix2 r k)) = ix1 r :=
    funext fun a => Fin.ext (by match a with | ⟨0, _⟩ => rfl)
  rw [val_main_v64_apply, val_main_v63_apply, val_main_v62_apply, val_main_v61_apply, val_main_cst_10_apply, deg_eq60, e,
    Ideal.maximumf_def, Ideal.ofBits_def, one_word]

theorem v65_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (r : Fin 100000) (k : Fin 128) :
    val_main_v65 (F := Ideal) x0 x1 x2 x3 x4 x5 x6 x7 x8 (ix2 r k)
      = agg x1 (val_main_v46 (F := Ideal) x0 x1 x2 x3 x4 x5 x6 x7 x8) (ix2 r k) * invDeg x1 (ix2 r (0 : Fin 1)) := by
  rw [val_main_v65_apply, agg2_eq, v64_at, invDeg_at, Ideal.hostDivf_def]
  exact div_eq_mul_one_div _ _ (max_one_ne_zero _)

theorem v66_eq (x9 : FVec Ideal S64x128 .f32) : val_main_v66 (F := Ideal) x9 = tr64 x9 := by
  unfold val_main_v66 tr64
  rfl

theorem v71_eq (x11 : FVec Ideal S64x128 .f32) : val_main_v71 (F := Ideal) x11 = tr64 x11 := by
  unfold val_main_v71 tr64
  rfl

theorem v67_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x9 : FVec Ideal S64x128 .f32) (r : Fin 100000) (j : Fin 64) :
    val_main_v67 (F := Ideal) x0 x1 x2 x3 x4 x5 x6 x7 x8 x9 (ix2 r j)
      = ∑ k : Fin 128, (agg x1 (val_main_v46 (F := Ideal) x0 x1 x2 x3 x4 x5 x6 x7 x8) (ix2 r k) * invDeg x1 (ix2 r (0 : Fin 1)))
          * tr64 x9 (ix2 k j) := by
  rw [val_main_v67_apply]
  refine Finset.sum_congr rfl fun k _ => ?_
  have e1 : lidx_main_v67 (ix2 r j) k = ix2 r k :=
    funext fun a => Fin.ext (by match a with | ⟨0, _⟩ => rfl | ⟨1, _⟩ => rfl)
  have e2 : ridx_main_v67 (ix2 r j) k = ix2 k j :=
    funext fun a => Fin.ext (by match a with | ⟨0, _⟩ => rfl | ⟨1, _⟩ => rfl)
  rw [e1, e2, v65_at, v66_eq]

theorem v72_at (x0 : FVec Ideal S100000x128 .f32) (x1 : IVec S2x1600000 32) (x2 : FVec Ideal S128x128 .f32) (x3 : FVec Ideal S128 .f32)
    (x4 : FVec Ideal S128x128 .f32) (x5 x6 x7 x8 : FVec Ideal S128 .f32) (x11 : FVec Ideal S64x128 .f32) (r : Fin 100000) (j : Fin 64) :
    val_main_v72 (F := Ideal) x0 x1 x2 x3 x4 x5 x6 x7 x8 x11 (ix2 r j)
      = ∑ k : Fin 128, val_main_v46 (F := Ideal) x0 x1 x2 x3 x4 x5 x6 x7 x8 (ix2 r k) * tr64 x11 (ix2 k j) := by
  rw [val_main_v72_apply]
  refine Finset.sum_congr rfl fun k _ => ?_
  have e1 : lidx_main_v72 (ix2 r j) k = ix2 r k :=
    funext fun a => Fin.ext (by match a with | ⟨0, _⟩ => rfl | ⟨1, _⟩ => rfl)
  have e2 : ridx_main_v72 (ix2 r j) k = ix2 k j :=
    funext fun a => Fin.ext (by match a with | ⟨0, _⟩ => rfl | ⟨1, _⟩ => rfl)
  rw [e1, e2, v71_eq]

/-- The second layer's bias. -/
theorem v69_at (x10 : FVec Ideal S64 .f32) (r : Fin 100000) (j : Fin 64) : val_main_v69 (F := Ideal) x10 (ix2 r j) = x10 (ix1 j) := by
  have e : idx_main_v68 (idx_main_v69 (ix2 r j)) = ix1 j := funext fun a => Fin.ext (by match a with | ⟨0, _⟩ => rfl)
  rw [val_main_v69_apply, val_main_v68_apply, e]

/-- The reference's result, as a function of its twelve arguments, is the network `program` of them. -/
theorem reference_value (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 : (⟨S128, .f32⟩ : BufTy).Contents (Elt Ideal))
    (x9 : (⟨S64x128, .f32⟩ : BufTy).Contents (Elt Ideal)) (x10 : (⟨S64, .f32⟩ : BufTy).Contents (Elt Ideal))
    (x11 : (⟨S64x128, .f32⟩ : BufTy).Contents (Elt Ideal)) :
    val_main_v73 (F := Ideal) x0 x1 x2 x3 x4 x5 x6 x7 x8 x9 x10 x11 = program x0 x1 x2 x3 x4 x5 x6 x7 x8 x9 x10 x11 := by
  funext i
  obtain ⟨r, j, rfl⟩ : ∃ (r : Fin 100000) (j : Fin 64), i = ix2 r j := ⟨i 0, i 1, eq_ix2 i⟩
  rw [val_main_v73_apply, val_main_v70_apply, v67_at, v72_at, v69_at, Ideal.addf_def, Ideal.addf_def]
  unfold program
  rw [out_ix2]
  unfold outAt
  rw [row64_at, ← layer1_eq, add_right_comm]

end Cert.Sage.Ref

end
-- ==== Proof.lean ====
/-
  Two mean-aggregating graph-convolution layers over 100000 nodes and 1600000 edges, a batch normalisation with fixed
  statistics and a rectifier between them: the kernel program (two grids of 20 blocks of 5000 nodes among host
  operations) against the reference (host operations only), equal over the extended reals.

  Both programs gather the features at the edges' sources and accumulate them at the destinations, and count the
  in-degrees, with the same host operations on the same operands; those are carried unopened. The kernel multiplies a
  node's neighbour sum by the reciprocal of its degree (at least one) and the reference divides by the degree: one
  function, a quotient by a nonzero extended real being the product with its reciprocal. The kernel adds the bias after
  both matrix products and the reference between them: the sum is commutative and associative. A change of float
  format is the identity, and a block's matrix product accumulated into zero is the plain sum. No finiteness of the
  inputs is used. The idealization rewrote nothing, so its statement is trivial.
-/
import proofs.«142155_j30889404793605_2_alg».proof.Defs
import proofs.«142155_j30889404793605_2_alg».proof.Proof.Gen.Kernel
import proofs.«142155_j30889404793605_2_alg».proof.Proof.Gen.Kernel.Frame
import proofs.«142155_j30889404793605_2_alg».proof.Proof.Gen.KernelIdeal
import proofs.«142155_j30889404793605_2_alg».proof.Proof.Gen.KernelIdeal.Frame
import proofs.«142155_j30889404793605_2_alg».proof.Proof.Gen.ReferenceIdeal
import proofs.«142155_j30889404793605_2_alg».proof.Proof.Gen.ReferenceIdeal.Run
import proofs.«142155_j30889404793605_2_alg».proof.Proof.Gen.ReferenceIdeal.Read
import proofs.«142155_j30889404793605_2_alg».proof.Proof.Gen.Pre_finite_inputs
import proofs.«142155_j30889404793605_2_alg».proof.Proof.KernelValue
import proofs.«142155_j30889404793605_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result
    buffers: the kernel program by its two layers' grids read back, the reference by its stages read at an element. -/
theorem algebraic : Cert.algebraic_KernelIdeal_ReferenceIdeal := by
  intro m ρ m' ρ' _ hagree
  refine ⟨fun c => Cert.Sage.Host.program (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.Sage.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, Cert.Sage.Ref.reference_value]
  obtain ⟨h0, h1, h2, h3, h4, h5, h6, h7, h8, h9, h10, h11⟩ := hagree c
  rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
